-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x512x56x56 .f32) (main_arg1 : FVec F S32x512 .f32) (main_arg2 : FVec F S32 .f32) (main_arg3 : FVec F S512x32 .f32) (main_arg4 : FVec F S512 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S32x512x56x56 : Shape := ⟨4, ![32, 512, 56, 56]⟩
abbrev S32x512 : Shape := ⟨2, ![32, 512]⟩
abbrev S32 : Shape := ⟨1, ![32]⟩
abbrev S512x32 : Shape := ⟨2, ![512, 32]⟩
abbrev S512 : Shape := ⟨1, ![512]⟩
abbrev S32x56x56x512 : Shape := ⟨4, ![32, 56, 56, 512]⟩
abbrev S32x3136x512 : Shape := ⟨3, ![32, 3136, 512]⟩
abbrev S_ : Shape := ⟨0, ![]⟩
abbrev S1x32 : Shape := ⟨2, ![1, 32]⟩
abbrev S1x512 : Shape := ⟨2, ![1, 512]⟩
abbrev S2x3136x512 : Shape := ⟨3, ![2, 3136, 512]⟩
abbrev S2x512 : Shape := ⟨2, ![2, 512]⟩
abbrev S2x32 : Shape := ⟨2, ![2, 32]⟩
abbrev S2x1x512 : Shape := ⟨3, ![2, 1, 512]⟩

abbrev nBuf : Space → Nat
  | .hbm => 15
  | .vmem => 8
  | .smem => 0
  | _ => 0

abbrev bufTy : (tb : Table) → Fin (tcTables nBuf tb) → BufTy
  | .hbm, ⟨0, _⟩ => ⟨S32x512x56x56, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S32x56x56x512, .f32⟩
  | .hbm, ⟨6, _⟩ => ⟨S32x3136x512, .f32⟩
  | .hbm, ⟨7, _⟩ => ⟨S_, .f32⟩
  | .hbm, ⟨8, _⟩ => ⟨S32x512, .f32⟩
  | .hbm, ⟨9, _⟩ => ⟨S32x512, .f32⟩
  | .hbm, ⟨10, _⟩ => ⟨S1x32, .f32⟩
  | .hbm, ⟨11, _⟩ => ⟨S1x512, .f32⟩
  | .hbm, ⟨12, _⟩ => ⟨S32x3136x512, .f32⟩
  | .hbm, ⟨13, _⟩ => ⟨S32x56x56x512, .f32⟩
  | .hbm, ⟨14, _⟩ => ⟨S32x512x56x56, .f32⟩
  | .local _ .vmem, ⟨0, _⟩ => ⟨S2x3136x512, .f32⟩
  | .local _ .vmem, ⟨1, _⟩ => ⟨S2x3136x512, .f32⟩
  | .local _ .vmem, ⟨2, _⟩ => ⟨S32x512, .f32⟩
  | .local _ .vmem, ⟨3, _⟩ => ⟨S1x32, .f32⟩
  | .local _ .vmem, ⟨4, _⟩ => ⟨S512x32, .f32⟩
  | .local _ .vmem, ⟨5, _⟩ => ⟨S1x512, .f32⟩
  | .local _ .vmem, ⟨6, _⟩ => ⟨S2x3136x512, .f32⟩
  | .local _ .vmem, ⟨7, _⟩ => ⟨S2x3136x512, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x3136x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x3136x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S32x512x56x56_S32x56x56x512_0_2_3_1 : S32x512x56x56.Transposes [0, 2, 3, 1] S32x56x56x512
  shapeCasts_S32x56x56x512_S32x3136x512 : S32x56x56x512.ShapeCasts S32x3136x512
  bcast_S_S32x512 : S_.BroadcastsInDim S32x512 (![] : Fin 0 → Fin S32x512.rank)
  shapeCasts_S32_S1x32 : S32.ShapeCasts S1x32
  shapeCasts_S512_S1x512 : S512.ShapeCasts S1x512
  inb_S2x3136x512_S2x3136x512_0_0_0 : ∀ a, (![0, 0, 0] : Fin 3 → Nat) a + S2x3136x512.size a ≤ S2x3136x512.size a
  h_S2x3136x512 : 0 < S2x3136x512.numel
  shapeCasts_S2x3136x512_S2x3136x512 : S2x3136x512.ShapeCasts S2x3136x512
  reduces_S2x3136x512_S2x512 : S2x3136x512.Reduces [1] S2x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2x32 : S1x32.Broadcasts S2x32
  inb_S512x32_S512x32_0_0 : ∀ a, (![0, 0] : Fin 2 → Nat) a + S512x32.size a ≤ S512x32.size a
  h_S512x32 : 0 < S512x32.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2x512 : S1x512.Broadcasts S2x512
  shapeCasts_S2x512_S2x1x512 : S2x512.ShapeCasts S2x1x512
  broadcasts_S2x1x512_S2x3136x512 : S2x1x512.Broadcasts S2x3136x512
  shapeCasts_S32x3136x512_S32x56x56x512 : S32x3136x512.ShapeCasts S32x56x56x512
  transposes_S32x56x56x512_S32x512x56x56_0_3_1_2 : S32x56x56x512.Transposes [0, 3, 1, 2] S32x512x56x56
  dot_S2x512_S32x512_S2x32_1_1_0_0_n_n_wf : DotDims.WF S2x512 S32x512 S2x32 [1] [1] [0] [0] [] []
  dot_S2x32_S512x32_S2x512_1_1_0_0_n_n_wf : DotDims.WF S2x32 S512x32 S2x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3136x512.size a ≤ S32x3136x512.size a
  hwx0_0 : ∀ i : grid0.Coords, EltTy.bits .f32 = 32 ∨ (Rect.block (s := S32x3136x512) S2x3136x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x3136x512.size a ≤ S32x3136x512.size a
  hwx0_5 : ∀ i : grid0.Coords, EltTy.bits .f32 = 32 ∨ (Rect.block (s := S32x3136x512) S2x3136x512.size (cc0_transform_5 i) (hinb0_5 i)).WholeWords (EltTy.packing .f32)

variable [Facts₀]

def dot_S2x512_S32x512_S2x32_1_1_0_0_n_n : DotDims S2x512 S32x512 S2x32 where
  lhsContracting := [1]
  rhsContracting := [1]
  lhsNonContracting := [0]
  rhsNonContracting := [0]
  lhsBatch := []
  rhsBatch := []
  wf := dot_S2x512_S32x512_S2x32_1_1_0_0_n_n_wf
def dot_S2x32_S512x32_S2x512_1_1_0_0_n_n : DotDims S2x32 S512x32 S2x512 where
  lhsContracting := [1]
  rhsContracting := [1]
  lhsNonContracting := [0]
  rhsNonContracting := [0]
  lhsBatch := []
  rhsBatch := []
  wf := dot_S2x32_S512x32_S2x512_1_1_0_0_n_n_wf

abbrev win0_0 : Pipeline.Window sig grid0 :=
  Pipeline.Window.ofSpec (Memref.whole main_v1) S2x3136x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2x3136x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x56x56 : Shape := ⟨4, ![32, 512, 56, 56]⟩
abbrev S32x512 : Shape := ⟨2, ![32, 512]⟩
abbrev S32 : Shape := ⟨1, ![32]⟩
abbrev S512x32 : Shape := ⟨2, ![512, 32]⟩
abbrev S512 : Shape := ⟨1, ![512]⟩
abbrev S32x512x3136 : Shape := ⟨3, ![32, 512, 3136]⟩
abbrev S1x32 : Shape := ⟨2, ![1, 32]⟩
abbrev S1x512 : Shape := ⟨2, ![1, 512]⟩
abbrev S1x512x3136 : Shape := ⟨3, ![1, 512, 3136]⟩
abbrev S1x512x1 : Shape := ⟨3, ![1, 512, 1]⟩

abbrev nBuf : Space → Nat
  | .hbm => 12
  | .vmem => 8
  | .smem => 0
  | _ => 0

abbrev bufTy : (tb : Table) → Fin (tcTables nBuf tb) → BufTy
  | .hbm, ⟨0, _⟩ => ⟨S32x512x56x56, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S32x512x3136, .f32⟩
  | .hbm, ⟨6, _⟩ => ⟨S512x32, .f32⟩
  | .hbm, ⟨7, _⟩ => ⟨S32x512, .f32⟩
  | .hbm, ⟨8, _⟩ => ⟨S1x32, .f32⟩
  | .hbm, ⟨9, _⟩ => ⟨S1x512, .f32⟩
  | .hbm, ⟨10, _⟩ => ⟨S32x512x3136, .f32⟩
  | .hbm, ⟨11, _⟩ => ⟨S32x512x56x56, .f32⟩
  | .local _ .vmem, ⟨0, _⟩ => ⟨S1x512x3136, .f32⟩
  | .local _ .vmem, ⟨1, _⟩ => ⟨S1x512x3136, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S1x512x3136, .f32⟩
  | .local _ .vmem, ⟨7, _⟩ => ⟨S1x512x3136, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x56x56_S32x512x3136 : S32x512x56x56.ShapeCasts S32x512x3136
  transposes_S32x512_S512x32_1_0 : S32x512.Transposes [1, 0] S512x32
  transposes_S512x32_S32x512_1_0 : S512x32.Transposes [1, 0] S32x512
  shapeCasts_S32_S1x32 : S32.ShapeCasts S1x32
  shapeCasts_S512_S1x512 : S512.ShapeCasts S1x512
  inb_S1x512x3136_S1x512x3136_0_0_0 : ∀ a, (![0, 0, 0] : Fin 3 → Nat) a + S1x512x3136.size a ≤ S1x512x3136.size a
  h_S1x512x3136 : 0 < S1x512x3136.numel
  shapeCasts_S1x512x3136_S1x512x3136 : S1x512x3136.ShapeCasts S1x512x3136
  reduces_S1x512x3136_S1x512 : S1x512x3136.Reduces [2] S1x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x512x1 : S1x512.ShapeCasts S1x512x1
  broadcasts_S1x512x1_S1x512x3136 : S1x512x1.Broadcasts S1x512x3136
  shapeCasts_S32x512x3136_S32x512x56x56 : S32x512x3136.ShapeCasts S32x512x56x56
  dot_S1x512_S512x32_S1x32_1_0_0_1_n_n_wf : DotDims.WF S1x512 S512x32 S1x32 [1] [0] [0] [1] [] []
  dot_S1x32_S32x512_S1x512_1_0_0_1_n_n_wf : DotDims.WF S1x32 S32x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3136.size a ≤ S32x512x3136.size a
  hwx0_0 : ∀ i : grid0.Coords, EltTy.bits .f32 = 32 ∨ (Rect.block (s := S32x512x3136) S1x512x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x3136.size a ≤ S32x512x3136.size a
  hwx0_5 : ∀ i : grid0.Coords, EltTy.bits .f32 = 32 ∨ (Rect.block (s := S32x512x3136) S1x512x3136.size (cc0_transform_5 i) (hinb0_5 i)).WholeWords (EltTy.packing .f32)

variable [Facts₀]

def dot_S1x512_S512x32_S1x32_1_0_0_1_n_n : DotDims S1x512 S512x32 S1x32 where
  lhsContracting := [1]
  rhsContracting := [0]
  lhsNonContracting := [0]
  rhsNonContracting := [1]
  lhsBatch := []
  rhsBatch := []
  wf := dot_S1x512_S512x32_S1x32_1_0_0_1_n_n_wf
def dot_S1x32_S32x512_S1x512_1_0_0_1_n_n : DotDims S1x32 S32x512 S1x512 where
  lhsContracting := [1]
  rhsContracting := [0]
  lhsNonContracting := [0]
  rhsNonContracting := [1]
  lhsBatch := []
  rhsBatch := []
  wf := dot_S1x32_S32x512_S1x512_1_0_0_1_n_n_wf

abbrev win0_0 : Pipeline.Window sig grid0 :=
  Pipeline.Window.ofSpec (Memref.whole main_v0) S1x512x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512x3136.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibLayout.lean ====
/-
  Three layout operations read at an index, at rank 3, with every index written by its coordinates. A value that
  depends on the first and last coordinates only is laid out along a middle axis of extent one and then repeated along
  it; a value that depends on the last two coordinates only is given a leading axis of extent one and then repeated
  along that. Reading the result at `(i, j, k)` reads the operand at `(i, k)`, respectively `(j, k)`: a cast keeps
  the row-major position, and a broadcast reads coordinate zero on an axis of extent one.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, c]` array cast to `[a, 1, c]` reads, at `(i, u, k)`, the operand at `(i, k)`: both have row-major
    position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.KernelGate.lean ====
/-
  The squeeze-and-excite body of the kernel, read at one element of its block. A block holds two images laid out
  as rows of 3136 spatial positions by 512 channels. For image `a` and channel `c` the body sums the channel over the
  3136 positions, takes the 32 inner products of those sums with the rows of the first weight matrix, adds the first
  bias, clips below at zero, takes the inner product with row `c` of the second weight matrix, adds the second bias
  and applies the logistic function; the stored element is the loaded element times that gate. Each step below reads
  one operation of that chain at an index written by its coordinates.
-/
import proofs.«102400_g2000302494452861_pallasbulk_240_7_alg».proof.Proof.Gen.KernelIdeal.Skeleton
import proofs.«102400_g2000302494452861_pallasbulk_240_7_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Gate

open Cert.KernelIdeal Cert.KernelIdeal.Gen Idealize.ShloMosaic Idealize.ShloMosaic.ValueIdx

/-- The sum over the 3136 positions of channel `c` of image `a`. -/
theorem pool_apply (x0 : FVec Ideal S2x3136x512 .f32) (a : Fin 2) (c : Fin 512) :
    multiReduction .add [1] S2x512 x0 0x00000000#32 reduces_S2x3136x512_S2x512 (.inl rfl) rfl (ix2 a c)
      = ∑ q : Fin 3136, x0 (ix3 a q c) := by
  refine (Ideal.multiReduction_add_single x0 0x00000000#32 reduces_S2x3136x512_S2x512 (.inl rfl) rfl (ix2 a c)).trans ?_
  refine Finset.sum_congr rfl fun q _ => congrArg x0 (funext fun d => Fin.ext ?_)
  match d with
  | ⟨0, _⟩ => rfl
  | ⟨1, _⟩ => rfl
  | ⟨2, _⟩ => rfl

/-! ### The first product: pooled sums against the rows of the first weight matrix -/

theorem lhs1_0 (i : S2x32.Idx) (q : dot_S2x512_S32x512_S2x32_1_1_0_0_n_n.contr.Idx) :
    (dot_S2x512_S32x512_S2x32_1_1_0_0_n_n.lhsIdx i q 0).val = (i 0).val := by
  unfold DotDims.lhsIdx
  rw [dif_neg (show ¬(0 : Fin S2x512.rank) ∈ dot_S2x512_S32x512_S2x32_1_1_0_0_n_n.lhsBatch by decide),
    dif_pos (show (0 : Fin S2x512.rank) ∈ dot_S2x512_S32x512_S2x32_1_1_0_0_n_n.lhsNonContracting by decide)]
  rfl
theorem lhs1_1 (i : S2x32.Idx) (q : dot_S2x512_S32x512_S2x32_1_1_0_0_n_n.contr.Idx) :
    (dot_S2x512_S32x512_S2x32_1_1_0_0_n_n.lhsIdx i q 1).val = (q ⟨0, by decide⟩).val :=
  dot_S2x512_S32x512_S2x32_1_1_0_0_n_n.lhsIdx_val_of_single rfl i q
theorem rhs1_0 (i : S2x32.Idx) (q : dot_S2x512_S32x512_S2x32_1_1_0_0_n_n.contr.Idx) :
    (dot_S2x512_S32x512_S2x32_1_1_0_0_n_n.rhsIdx i q 0).val = (i 1).val := by
  unfold DotDims.rhsIdx
  rw [dif_neg (show ¬(0 : Fin S32x512.rank) ∈ dot_S2x512_S32x512_S2x32_1_1_0_0_n_n.rhsBatch by decide),
    dif_pos (show (0 : Fin S32x512.rank) ∈ dot_S2x512_S32x512_S2x32_1_1_0_0_n_n.rhsNonContracting by decide)]
  rfl
theorem rhs1_1 (i : S2x32.Idx) (q : dot_S2x512_S32x512_S2x32_1_1_0_0_n_n.contr.Idx) :
    (dot_S2x512_S32x512_S2x32_1_1_0_0_n_n.rhsIdx i q 1).val = (q ⟨0, by decide⟩).val :=
  dot_S2x512_S32x512_S2x32_1_1_0_0_n_n.rhsIdx_val_of_single rfl i q

/-- Entry `(a, r)` of the first product is the inner product of row `a` of the left factor with row `r` of the right. -/
theorem hidden_apply (p : FVec Ideal S2x512 .f32) (w : FVec Ideal S32x512 .f32) (a : Fin 2) (r : Fin 32) :
    matmul dot_S2x512_S32x512_S2x32_1_1_0_0_n_n none p w (constant S2x32 .f32 0x00000000#32) (ix2 a r)
      = ∑ c : Fin 512, p (ix2 a c) * w (ix2 r c) := by
  show FloatOps.matmul dot_S2x512_S32x512_S2x32_1_1_0_0_n_n none p w (constant S2x32 .f32 0x00000000#32) (ix2 a r) = _
  rw [Ideal.matmul_constant_zero_apply,
    ← Equiv.sum_comp (contrEquiv1 dot_S2x512_S32x512_S2x32_1_1_0_0_n_n 512 rfl rfl).symm]
  refine Finset.sum_congr rfl fun k _ => ?_
  have hk := contrEquiv1_symm_val dot_S2x512_S32x512_S2x32_1_1_0_0_n_n 512 rfl rfl k
  have el : dot_S2x512_S32x512_S2x32_1_1_0_0_n_n.lhsIdx (ix2 a r)
      ((contrEquiv1 dot_S2x512_S32x512_S2x32_1_1_0_0_n_n 512 rfl rfl).symm k) = ix2 a k := funext fun ax => Fin.ext (by
    match ax with
    | ⟨0, _⟩ => exact lhs1_0 _ _
    | ⟨1, _⟩ => exact (lhs1_1 _ _).trans hk)
  have er : dot_S2x512_S32x512_S2x32_1_1_0_0_n_n.rhsIdx (ix2 a r)
      ((contrEquiv1 dot_S2x512_S32x512_S2x32_1_1_0_0_n_n 512 rfl rfl).symm k) = ix2 r k := funext fun ax => Fin.ext (by
    match ax with
    | ⟨0, _⟩ => exact rhs1_0 _ _
    | ⟨1, _⟩ => exact (rhs1_1 _ _).trans hk)
  rw [el, er]

/-! ### The second product: clipped activations against the rows of the second weight matrix -/

theorem lhs2_0 (i : S2x512.Idx) (q : dot_S2x32_S512x32_S2x512_1_1_0_0_n_n.contr.Idx) :
    (dot_S2x32_S512x32_S2x512_1_1_0_0_n_n.lhsIdx i q 0).val = (i 0).val := by
  unfold DotDims.lhsIdx
  rw [dif_neg (show ¬(0 : Fin S2x32.rank) ∈ dot_S2x32_S512x32_S2x512_1_1_0_0_n_n.lhsBatch by decide),
    dif_pos (show (0 : Fin S2x32.rank) ∈ dot_S2x32_S512x32_S2x512_1_1_0_0_n_n.lhsNonContracting by decide)]
  rfl
theorem lhs2_1 (i : S2x512.Idx) (q : dot_S2x32_S512x32_S2x512_1_1_0_0_n_n.contr.Idx) :
    (dot_S2x32_S512x32_S2x512_1_1_0_0_n_n.lhsIdx i q 1).val = (q ⟨0, by decide⟩).val :=
  dot_S2x32_S512x32_S2x512_1_1_0_0_n_n.lhsIdx_val_of_single rfl i q
theorem rhs2_0 (i : S2x512.Idx) (q : dot_S2x32_S512x32_S2x512_1_1_0_0_n_n.contr.Idx) :
    (dot_S2x32_S512x32_S2x512_1_1_0_0_n_n.rhsIdx i q 0).val = (i 1).val := by
  unfold DotDims.rhsIdx
  rw [dif_neg (show ¬(0 : Fin S512x32.rank) ∈ dot_S2x32_S512x32_S2x512_1_1_0_0_n_n.rhsBatch by decide),
    dif_pos (show (0 : Fin S512x32.rank) ∈ dot_S2x32_S512x32_S2x512_1_1_0_0_n_n.rhsNonContracting by decide)]
  rfl
theorem rhs2_1 (i : S2x512.Idx) (q : dot_S2x32_S512x32_S2x512_1_1_0_0_n_n.contr.Idx) :
    (dot_S2x32_S512x32_S2x512_1_1_0_0_n_n.rhsIdx i q 1).val = (q ⟨0, by decide⟩).val :=
  dot_S2x32_S512x32_S2x512_1_1_0_0_n_n.rhsIdx_val_of_single rfl i q

/-- Entry `(a, c)` of the second product is the inner product of row `a` of the left factor with row `c` of the right. -/
theorem excite_apply (h : FVec Ideal S2x32 .f32) (w : FVec Ideal S512x32 .f32) (a : Fin 2) (c : Fin 512) :
    matmul dot_S2x32_S512x32_S2x512_1_1_0_0_n_n none h w (constant S2x512 .f32 0x00000000#32) (ix2 a c)
      = ∑ r : Fin 32, h (ix2 a r) * w (ix2 c r) := by
  show FloatOps.matmul dot_S2x32_S512x32_S2x512_1_1_0_0_n_n none h w (constant S2x512 .f32 0x00000000#32) (ix2 a c) = _
  rw [Ideal.matmul_constant_zero_apply,
    ← Equiv.sum_comp (contrEquiv1 dot_S2x32_S512x32_S2x512_1_1_0_0_n_n 32 rfl rfl).symm]
  refine Finset.sum_congr rfl fun k _ => ?_
  have hk := contrEquiv1_symm_val dot_S2x32_S512x32_S2x512_1_1_0_0_n_n 32 rfl rfl k
  have el : dot_S2x32_S512x32_S2x512_1_1_0_0_n_n.lhsIdx (ix2 a c)
      ((contrEquiv1 dot_S2x32_S512x32_S2x512_1_1_0_0_n_n 32 rfl rfl).symm k) = ix2 a k := funext fun ax => Fin.ext (by
    match ax with
    | ⟨0, _⟩ => exact lhs2_0 _ _
    | ⟨1, _⟩ => exact (lhs2_1 _ _).trans hk)
  have er : dot_S2x32_S512x32_S2x512_1_1_0_0_n_n.rhsIdx (ix2 a c)
      ((contrEquiv1 dot_S2x32_S512x32_S2x512_1_1_0_0_n_n 32 rfl rfl).symm k) = ix2 c k := funext fun ax => Fin.ext (by
    match ax with
    | ⟨0, _⟩ => exact rhs2_0 _ _
    | ⟨1, _⟩ => exact (rhs2_1 _ _).trans hk)
  rw [el, er]

/-! ### The gate and the stored element -/

/-- The gate of image `a` and channel `c`, from a block `x0` of two images, the scaled first weights `x1`, the first
    bias `x2` as a row, the second weights `x3` and the second bias `x4` as a row. -/
def gate (x0 : FVec Ideal S2x3136x512 .f32) (x1 : FVec Ideal S32x512 .f32) (x2 : FVec Ideal S1x32 .f32)
    (x3 : FVec Ideal S512x32 .f32) (x4 : FVec Ideal S1x512 .f32) (a : Fin 2) (c : Fin 512) : EReal :=
  Ideal.logistic ((∑ r : Fin 32,
      max ((∑ c' : Fin 512, (∑ q : Fin 3136, x0 (ix3 a q c')) * x1 (ix2 r c')) + x2 (ix2 (0 : Fin 1) r))
        (Ideal.ofBits .f32 0x00000000#32) * x3 (ix2 c r))
    + x4 (ix2 (0 : Fin 1) c))

/-- The element the body stores at position `q`, channel `c` of image `a`: the loaded element times the gate. -/
theorem pay_apply (x0 : FVec Ideal S2x3136x512 .f32) (x1 : FVec Ideal S32x512 .f32) (x2 : FVec Ideal S1x32 .f32)
    (x3 : FVec Ideal S512x32 .f32) (x4 : FVec Ideal S1x512 .f32) (a : Fin 2) (q : Fin 3136) (c : Fin 512) :
    k0_pay1 (F := Ideal) x0 x1 x2 x3 x4 (ix3 a q c) = x0 (ix3 a q c) * gate x0 x1 x2 x3 x4 a c := by
  unfold k0_pay1 gate
  dsimp only
  rw [mulf_apply, broadcastTo_a1c_abc_apply, shapeCast_ac_a1c_apply]
  simp only [shapeCast_self]
  show x0 (ix3 a q c) * Ideal.logistic _ = _
  refine congrArg (fun z => x0 (ix3 a q c) * Ideal.logistic z) ?_
  rw [addf_apply, broadcastTo_1b_ab_apply, excite_apply]
  refine congrArg (fun z => z + x4 (ix2 (0 : Fin 1) c)) (Finset.sum_congr rfl fun r _ => ?_)
  refine congrArg (fun z => z * x3 (ix2 c r)) ?_
  rw [maximumf_apply, broadcast_apply, addf_apply, broadcastTo_1b_ab_apply, hidden_apply]
  refine congrArg (fun z => max (z + x2 (ix2 (0 : Fin 1) r)) (Ideal.ofBits .f32 0x00000000#32)) (Finset.sum_congr rfl fun c' _ => ?_)
  rw [pool_apply]

end Cert.KernelIdeal.Gate

end
-- ==== Proof.KernelBlocks.lean ====
/-
  From blocks to the whole array, for the kernel. Grid point `t` of 16 works on images `2t` and `2t + 1`: its block of
  the input and of the output is rows `2t, 2t + 1` of a `32 × 3136 × 512` array, and the four small operands are read
  whole at every point. So what a point writes back is the restriction to its two images of ONE function of the
  arrays the region finds: element `(n, q, c)` is the input element times the gate of image `n` and channel `c`. The
  sixteen blocks cover the output array, which therefore ends as that function.
-/
import proofs.«102400_g2000302494452861_pallasbulk_240_7_alg».proof.Proof.Gen.KernelIdeal.Frame
import proofs.«102400_g2000302494452861_pallasbulk_240_7_alg».proof.Proof.KernelGate
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The gate of image `n` and channel `c` over whole arrays: the channel-last input `A0`, the scaled first weights `A1`,
    the first bias `A2` as a row, the second weights `A3`, the second bias `A4` as a row. -/
def gateAt (A0 : FVec Ideal S32x3136x512 .f32) (A1 : FVec Ideal S32x512 .f32) (A2 : FVec Ideal S1x32 .f32)
    (A3 : FVec Ideal S512x32 .f32) (A4 : FVec Ideal S1x512 .f32) (n : Fin 32) (c : Fin 512) : EReal :=
  Ideal.logistic ((∑ r : Fin 32,
      max ((∑ c' : Fin 512, (∑ q : Fin 3136, A0 (ix3 n q c')) * A1 (ix2 r c')) + A2 (ix2 (0 : Fin 1) r))
        (Ideal.ofBits .f32 0x00000000#32) * A3 (ix2 c r))
    + A4 (ix2 (0 : Fin 1) c))

/-- The rescaled array: every element times the gate of its image and channel. -/
def scaled (A0 : FVec Ideal S32x3136x512 .f32) (A1 : FVec Ideal S32x512 .f32) (A2 : FVec Ideal S1x32 .f32)
    (A3 : FVec Ideal S512x32 .f32) (A4 : FVec Ideal S1x512 .f32) : FVec Ideal S32x3136x512 .f32 :=
  fun i => A0 i * gateAt A0 A1 A2 A3 A4 (i 0) (i 2)

/-- The rescaled array at image `n`, position `q`, channel `c`. -/
theorem scaled_apply (A0 : FVec Ideal S32x3136x512 .f32) (A1 : FVec Ideal S32x512 .f32) (A2 : FVec Ideal S1x32 .f32)
    (A3 : FVec Ideal S512x32 .f32) (A4 : FVec Ideal S1x512 .f32) (n : Fin 32) (q : Fin 3136) (c : Fin 512) :
    scaled A0 A1 A2 A3 A4 (ix3 n q c) = A0 (ix3 n q c) * gateAt A0 A1 A2 A3 A4 n c := rfl

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the grid: the input and the output move one block of two images per point, the
    small operands stay at block zero. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The image that row `a` of point `t`'s block is. -/
def img (t : Fin cfg0.N) (a : Fin 2) : Fin 32 :=
  ⟨2 * t.val + a.val, by have h := t.isLt; have hN : cfg0.N = 16 := N_0; omega⟩

/-- Row `a` of point `t`'s input block is image `2t + a` of the array. -/
theorem read_input (c : Dev nD) (t : Fin cfg0.N) (a : Fin 2) (q : Fin 3136) (ch : Fin 512) :
    iblk m c 0 t (ix3 a q ch) = V m c main_v1 (ix3 (img t a) q ch) := by
  obtain ⟨e0, e1, e2, -⟩ := index_facts t
  show V m c main_v1 (((cfg0.win 0).blk t).view.emb (ix3 a q ch)) = V m c main_v1 (ix3 (img t a) q ch)
  have h : ((cfg0.win 0).blk t).view.emb (ix3 a q ch) = ix3 (img t a) q ch := by
    funext ax; apply Fin.ext
    match ax with
    | ⟨0, _⟩ => show win0_0.index t (0 : Fin 3) * 2 + 1 * a.val = 2 * t.val + a.val; omega
    | ⟨1, _⟩ => show win0_0.index t (1 : Fin 3) * 3136 + 1 * q.val = q.val; omega
    | ⟨2, _⟩ => show win0_0.index t (2 : Fin 3) * 512 + 1 * ch.val = ch.val; omega
  rw [h]

/-- The scaled first weights are read whole. -/
theorem read_w1 (c : Dev nD) (t : Fin cfg0.N) (r : Fin 32) (ch : Fin 512) :
    iblk m c 1 t (ix2 r ch) = V m c main_v3 (ix2 r ch) := by
  obtain ⟨-, -, -, e0, e1, -⟩ := index_facts t
  show V m c main_v3 (((cfg0.win 1).blk t).view.emb (ix2 r ch)) = V m c main_v3 (ix2 r ch)
  have h : ((cfg0.win 1).blk t).view.emb (ix2 r ch) = ix2 r ch := by
    funext ax; apply Fin.ext
    match ax with
    | ⟨0, _⟩ => show win0_1.index t (0 : Fin 2) * 32 + 1 * r.val = r.val; omega
    | ⟨1, _⟩ => show win0_1.index t (1 : Fin 2) * 512 + 1 * ch.val = ch.val; omega
  rw [h]

/-- The first bias row is read whole. -/
theorem read_b1 (c : Dev nD) (t : Fin cfg0.N) (u : Fin 1) (r : Fin 32) :
    iblk m c 2 t (ix2 u r) = V m c main_v4 (ix2 u r) := by
  obtain ⟨-, -, -, -, -, e0, e1, -⟩ := index_facts t
  show V m c main_v4 (((cfg0.win 2).blk t).view.emb (ix2 u r)) = V m c main_v4 (ix2 u r)
  have h : ((cfg0.win 2).blk t).view.emb (ix2 u r) = ix2 u r := by
    funext ax; apply Fin.ext
    match ax with
    | ⟨0, _⟩ => show win0_2.index t (0 : Fin 2) * 1 + 1 * u.val = u.val; omega
    | ⟨1, _⟩ => show win0_2.index t (1 : Fin 2) * 32 + 1 * r.val = r.val; omega
  rw [h]

/-- The second weights are read whole. -/
theorem read_w2 (c : Dev nD) (t : Fin cfg0.N) (ch : Fin 512) (r : Fin 32) :
    iblk m c 3 t (ix2 ch r) = V m c main_arg3 (ix2 ch r) := by
  obtain ⟨-, -, -, -, -, -, -, e0, e1, -⟩ := index_facts t
  show V m c main_arg3 (((cfg0.win 3).blk t).view.emb (ix2 ch r)) = V m c main_arg3 (ix2 ch r)
  have h : ((cfg0.win 3).blk t).view.emb (ix2 ch r) = ix2 ch r := by
    funext ax; apply Fin.ext
    match ax with
    | ⟨0, _⟩ => show win0_3.index t (0 : Fin 2) * 512 + 1 * ch.val = ch.val; omega
    | ⟨1, _⟩ => show win0_3.index t (1 : Fin 2) * 32 + 1 * r.val = r.val; omega
  rw [h]

/-- The second bias row is read whole. -/
theorem read_b2 (c : Dev nD) (t : Fin cfg0.N) (u : Fin 1) (ch : Fin 512) :
    iblk m c 4 t (ix2 u ch) = V m c main_v5 (ix2 u ch) := by
  obtain ⟨-, -, -, -, -, -, -, -, -, e0, e1, -⟩ := index_facts t
  show V m c main_v5 (((cfg0.win 4).blk t).view.emb (ix2 u ch)) = V m c main_v5 (ix2 u ch)
  have h : ((cfg0.win 4).blk t).view.emb (ix2 u ch) = ix2 u ch := by
    funext ax; apply Fin.ext
    match ax with
    | ⟨0, _⟩ => show win0_4.index t (0 : Fin 2) * 1 + 1 * u.val = u.val; omega
    | ⟨1, _⟩ => show win0_4.index t (1 : Fin 2) * 512 + 1 * ch.val = ch.val; omega
  rw [h]

/-- Row `a` of point `t`'s output block sits at image `2t + a` of the output array. -/
theorem out_pos (t : Fin cfg0.N) (a : Fin 2) (q : Fin 3136) (ch : Fin 512) :
    ((cfg0.win 5).blk t).view.emb (ix3 a q ch) = ix3 (img t a) q ch := by
  obtain ⟨-, -, -, -, -, -, -, -, -, -, -, e0, e1, e2⟩ := index_facts t
  funext ax; apply Fin.ext
  match ax with
  | ⟨0, _⟩ => show win0_5.index t (0 : Fin 3) * 2 + 1 * a.val = 2 * t.val + a.val; omega
  | ⟨1, _⟩ => show win0_5.index t (1 : Fin 3) * 3136 + 1 * q.val = q.val; omega
  | ⟨2, _⟩ => show win0_5.index t (2 : Fin 3) * 512 + 1 * ch.val = ch.val; omega

/-- What point `t` writes back is its block of the rescaled array. -/
theorem flushed_eq (c : Dev nD) (t : Fin cfg0.N) :
    (dats m 0 c).flushed 5 t = ((cfg0.win 5).blk t).view.read (Elt Ideal)
      (scaled (V m c main_v1) (V m c main_v3) (V m c main_v4) (V m c main_arg3) (V m c main_v5)) := by
  show (cfg0.win 5).cut (grid0.coords t) ((dats m 0 c).after 5 t) = _
  rw [after0_5]
  unfold out0_5
  rw [View.canon_unit_zero zeros3]
  simp only [View.ld_unit_zero (S := S2x3136x512) zeros3, View.ld_unit_zero (S := S32x512) zeros2,
    View.ld_unit_zero (S := S1x32) zeros2, View.ld_unit_zero (S := S512x32) zeros2,
    View.ld_unit_zero (S := S1x512) zeros2]
  funext y
  obtain ⟨a, q, ch, rfl⟩ : ∃ (a : Fin 2) (q : Fin 3136) (ch : Fin 512), y = ix3 a q ch := ⟨y 0, y 1, y 2, eq_ix3 y⟩
  show k0_pay1 (F := Ideal) (iblk m c 0 t) (iblk m c 1 t) (iblk m c 2 t) (iblk m c 3 t) (iblk m c 4 t) (ix3 a q ch)
    = scaled (V m c main_v1) (V m c main_v3) (V m c main_v4) (V m c main_arg3) (V m c main_v5)
        (((cfg0.win 5).blk t).view.emb (ix3 a q ch))
  rw [out_pos t a q ch]
  refine (Gate.pay_apply (iblk m c 0 t) (iblk m c 1 t) (iblk m c 2 t) (iblk m c 3 t) (iblk m c 4 t) a q ch).trans ?_
  rw [scaled_apply]
  unfold Gate.gate gateAt
  simp only [read_input m c t, read_w1 m c t, read_b1 m c t, read_w2 m c t, read_b2 m c t]

/-- An index of the output array is in point `t`'s block iff each coordinate is in the block's range on its axis. -/
theorem mem_blk (t : Fin cfg0.N) (i : S32x3136x512.Idx) :
    i ∈ ((cfg0.win 5).blk t).view.set ↔ ∀ a : Fin 3, win0_5.index t a * S2x3136x512.size a ≤ (i a).val
      ∧ (i a).val < win0_5.index t a * S2x3136x512.size a + S2x3136x512.size a := by
  show i ∈ ((View.whole main_v6).slice (win0_5.rect t)).set ↔ _
  rw [View.set_slice_whole, Rect.mem_set_unit]
  exact Iff.rfl

/-- Every image is in some point's block: image `n` in point `n / 2`'s. -/
theorem cover (i : S32x3136x512.Idx) :
    ∃ t : Fin cfg0.N, (cfg0.win 5).flush t = true ∧ i ∈ ((cfg0.win 5).blk t).view.set := by
  have hi0 : (i 0).val < 32 := (i 0).isLt
  have hi1 : (i 1).val < 3136 := (i 1).isLt
  have hi2 : (i 2).val < 512 := (i 2).isLt
  have hN : cfg0.N = 16 := N_0
  have ht : (i 0).val / 2 < cfg0.N := by rw [hN]; omega
  obtain ⟨-, -, -, -, -, -, -, -, -, -, -, e0, e1, e2⟩ := index_facts ⟨(i 0).val / 2, ht⟩
  refine ⟨⟨(i 0).val / 2, ht⟩, flush0_5 _, ?_⟩
  rw [mem_blk]
  intro a
  match a with
  | ⟨0, _⟩ =>
    show win0_5.index ⟨(i 0).val / 2, ht⟩ (0 : Fin 3) * 2 ≤ (i 0).val
      ∧ (i 0).val < win0_5.index ⟨(i 0).val / 2, ht⟩ (0 : Fin 3) * 2 + 2
    rw [e0]; show (i 0).val / 2 * 2 ≤ (i 0).val ∧ (i 0).val < (i 0).val / 2 * 2 + 2; omega
  | ⟨1, _⟩ =>
    show win0_5.index ⟨(i 0).val / 2, ht⟩ (1 : Fin 3) * 3136 ≤ (i 1).val
      ∧ (i 1).val < win0_5.index ⟨(i 0).val / 2, ht⟩ (1 : Fin 3) * 3136 + 3136
    rw [e1]; omega
  | ⟨2, _⟩ =>
    show win0_5.index ⟨(i 0).val / 2, ht⟩ (2 : Fin 3) * 512 ≤ (i 2).val
      ∧ (i 2).val < win0_5.index ⟨(i 0).val / 2, ht⟩ (2 : Fin 3) * 512 + 512
    rw [e2]; omega

/-- The output array after the region: the rescaled array of what the region found. -/
theorem final (c : Dev nD) : (dats m 0 c).arrAt 5 cfg0.N
    = scaled (V m c main_v1) (V m c main_v3) (V m c main_v4) (V m c main_arg3) (V m c main_v5) :=
  (dats m 0 c).arrAt_eq_of_cover 5 _ (fun t _ => flushed_eq m c t) cover

end Cert.KernelIdeal.Blocks

end
-- ==== Proof.Spec.lean ====
/-
  The squeeze-and-excite module as one function of its five arguments, element by element. For image `n` and channel
  `c`: pool the channel over the 56 × 56 positions, scale by a fixed factor folded into the first weights, apply the
  first weight matrix and bias, clip below at zero, apply row `c` of the second weight matrix and its bias, and take the
  logistic function; every element of the image's channel is multiplied by that gate. A flat position `q` of 3136
  is row `q / 56`, column `q % 56`.
-/
import Idealize.ShloMosaic.PureOps.Ideal
import Idealize.ShloMosaic.Lib.ValueIdx

noncomputable section

open scoped BigOperators

namespace Cert.SE

open Idealize.ShloMosaic Idealize.ShloMosaic.ValueIdx

/-- The row of the 56 × 56 grid that holds flat position `q`. -/
def row (q : Fin 3136) : Fin 56 := ⟨q.val / 56, by have := q.isLt; omega⟩
/-- The column of the 56 × 56 grid that holds flat position `q`. -/
def col (q : Fin 3136) : Fin 56 := ⟨q.val % 56, by omega⟩
/-- The flat position of row `h`, column `w`. -/
def pos (h w : Fin 56) : Fin 3136 := ⟨h.val * 56 + w.val, by have := h.isLt; have := w.isLt; omega⟩

theorem row_pos (h w : Fin 56) : row (pos h w) = h :=
  Fin.ext (by show (h.val * 56 + w.val) / 56 = h.val; have := w.isLt; omega)
theorem col_pos (h w : Fin 56) : col (pos h w) = w :=
  Fin.ext (by show (h.val * 56 + w.val) % 56 = w.val; have := w.isLt; omega)

/-- The pooling factor, as the word both programs carry: the float nearest 1/3136. -/
def factor : EReal := Ideal.ofBits .f32 0x39A72F05#32
/-- The clipping level, as the word both programs carry. -/
def level : EReal := Ideal.ofBits .f32 0x00000000#32

/-- The first weight of hidden unit `r` and channel `c`, with the pooling factor folded in. -/
def scaledW (w1 : FVec Ideal ⟨2, ![32, 512]⟩ .f32) (r : Fin 32) (c : Fin 512) : EReal := w1 (ix2 r c) * factor

/-- The sum of channel `c` of image `n` over its 3136 positions. -/
def pooled (x : FVec Ideal ⟨4, ![32, 512, 56, 56]⟩ .f32) (n : Fin 32) (c : Fin 512) : EReal :=
  ∑ q : Fin 3136, x (ix4 n c (row q) (col q))

/-- The gate of image `n` and channel `c`. -/
def gate (x : FVec Ideal ⟨4, ![32, 512, 56, 56]⟩ .f32) (w1 : FVec Ideal ⟨2, ![32, 512]⟩ .f32)
    (b1 : FVec Ideal ⟨1, ![32]⟩ .f32) (w2 : FVec Ideal ⟨2, ![512, 32]⟩ .f32) (b2 : FVec Ideal ⟨1, ![512]⟩ .f32)
    (n : Fin 32) (c : Fin 512) : EReal :=
  Ideal.logistic ((∑ r : Fin 32,
      max ((∑ c' : Fin 512, pooled x n c' * scaledW w1 r c') + b1 (ix1 r)) level * w2 (ix2 c r))
    + b2 (ix1 c))

/-- The module's result: every element times the gate of its image and channel. -/
def out (x : FVec Ideal ⟨4, ![32, 512, 56, 56]⟩ .f32) (w1 : FVec Ideal ⟨2, ![32, 512]⟩ .f32)
    (b1 : FVec Ideal ⟨1, ![32]⟩ .f32) (w2 : FVec Ideal ⟨2, ![512, 32]⟩ .f32) (b2 : FVec Ideal ⟨1, ![512]⟩ .f32) :
    FVec Ideal ⟨4, ![32, 512, 56, 56]⟩ .f32 :=
  fun i => x i * gate x w1 b1 w2 b2 (i 0) (i 1)

theorem out_apply (x : FVec Ideal ⟨4, ![32, 512, 56, 56]⟩ .f32) (w1 : FVec Ideal ⟨2, ![32, 512]⟩ .f32)
    (b1 : FVec Ideal ⟨1, ![32]⟩ .f32) (w2 : FVec Ideal ⟨2, ![512, 32]⟩ .f32) (b2 : FVec Ideal ⟨1, ![512]⟩ .f32)
    (n : Fin 32) (c : Fin 512) (h w : Fin 56) :
    out x w1 b1 w2 b2 (ix4 n c h w) = x (ix4 n c h w) * gate x w1 b1 w2 b2 n c := rfl

/-- Scaling the pooled sum before the product, or the weight: one product of three extended reals, by
    commutativity and associativity alone (no finiteness is needed). -/
theorem scale_move (p k w : EReal) : (p * k) * w = p * (w * k) := by
  rw [mul_assoc, mul_comm k w]

end Cert.SE

end
-- ==== Proof.KernelAround.lean ====
/-
  The kernel's program around its region. Before the region the input is rearranged channel-last and its two
  spatial axes are flattened, the first weights are scaled by the pooling factor, and each bias becomes a one-row
  matrix; after it the flattened axis is split again and the channel axis is moved back. Reading each of these steps at
  an index shows that the program's result is the squeeze-and-excite function of its five arguments.
-/
import proofs.«102400_g2000302494452861_pallasbulk_240_7_alg».proof.Proof.Gen.KernelIdeal.Frame
import proofs.«102400_g2000302494452861_pallasbulk_240_7_alg».proof.Proof.KernelBlocks
import proofs.«102400_g2000302494452861_pallasbulk_240_7_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Around

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ### What the region finds -/

theorem input_eq (c : Dev nD) : (V m c main_v1 : S32x3136x512.Idx → EReal)
    = shapeCast S32x3136x512 (transpose S32x56x56x512 [0, 2, 3, 1] (m ((c : Thread nD τ).loc main_arg0))
        transposes_S32x512x56x56_S32x56x56x512_0_2_3_1) shapeCasts_S32x56x56x512_S32x3136x512 := by
  show StableHlo.after hostOps0 (fun b => m (c, b)) (Proc.devRef .tc main_v1) = _
  after_results
  rfl

/-- The channel-last, flattened input at image `n`, position `q`, channel `ch` is the argument at `(n, ch, q / 56, q % 56)`:
    flattening keeps the row-major position, and the rearrangement permutes the coordinates. -/
theorem input_apply (c : Dev nD) (n : Fin 32) (q : Fin 3136) (ch : Fin 512) :
    V m c main_v1 (ix3 n q ch) = m ((c : Thread nD τ).loc main_arg0) (ix4 n ch (SE.row q) (SE.col q)) := by
  refine (congrFun (input_eq m c) (ix3 n q ch)).trans ?_
  refine (shapeCast_apply _ _ (ix3 n q ch) (ix4 n (SE.row q) (SE.col q) ch) ?_).trans ?_
  · rw [Shape.rowMajor_val_four, Shape.rowMajor_val_three]
    show ((n.val * 56 + q.val / 56) * 56 + q.val % 56) * 512 + ch.val = (n.val * 3136 + q.val) * 512 + ch.val
    omega
  · exact transpose_apply _ _ _ (ix4 n (SE.row q) (SE.col q) ch) (ix4 n ch (SE.row q) (SE.col q)) fun b =>
      match b with | ⟨0, _⟩ => rfl | ⟨1, _⟩ => rfl | ⟨2, _⟩ => rfl | ⟨3, _⟩ => rfl

theorem w1_eq (c : Dev nD) : (V m c main_v3 : S32x512.Idx → EReal)
    = mulf (m ((c : Thread nD τ).loc main_arg1))
        (broadcastInDim S32x512 ![] bcast_S_S32x512 (constant (F := Ideal) S_ .f32 0x39A72F05#32)) := by
  show StableHlo.after hostOps0 (fun b => m (c, b)) (Proc.devRef .tc main_v3) = _
  after_results

/-- The scaled first weights: every weight times the pooling factor. -/
theorem w1_apply (c : Dev nD) (r : Fin 32) (ch : Fin 512) :
    V m c main_v3 (ix2 r ch) = SE.scaledW (m ((c : Thread nD τ).loc main_arg1)) r ch := by
  refine (congrFun (w1_eq m c) (ix2 r ch)).trans ?_
  have hb : broadcastInDim S32x512 ![] bcast_S_S32x512 (constant (F := Ideal) S_ .f32 0x39A72F05#32) (ix2 r ch)
      = SE.factor := broadcastInDim_apply _ _ _ (ix2 r ch) ix0 fun a => a.elim0
  rw [mulf_apply, hb]
  rfl

theorem b1_eq (c : Dev nD) : (V m c main_v4 : S1x32.Idx → EReal)
    = shapeCast S1x32 (m ((c : Thread nD τ).loc main_arg2)) shapeCasts_S32_S1x32 := by
  show StableHlo.after hostOps0 (fun b => m (c, b)) (Proc.devRef .tc main_v4) = _
  after_results
  rfl

/-- The first bias as a one-row matrix. -/
theorem b1_apply (c : Dev nD) (u : Fin 1) (r : Fin 32) :
    V m c main_v4 (ix2 u r) = m ((c : Thread nD τ).loc main_arg2) (ix1 r) :=
  (congrFun (b1_eq m c) (ix2 u r)).trans (shapeCast_a_1a_apply _ _ u r)

theorem b2_eq (c : Dev nD) : (V m c main_v5 : S1x512.Idx → EReal)
    = shapeCast S1x512 (m ((c : Thread nD τ).loc main_arg4)) shapeCasts_S512_S1x512 := by
  show StableHlo.after hostOps0 (fun b => m (c, b)) (Proc.devRef .tc main_v5) = _
  after_results
  rfl

/-- The second bias as a one-row matrix. -/
theorem b2_apply (c : Dev nD) (u : Fin 1) (ch : Fin 512) :
    V m c main_v5 (ix2 u ch) = m ((c : Thread nD τ).loc main_arg4) (ix1 ch) :=
  (congrFun (b2_eq m c) (ix2 u ch)).trans (shapeCast_a_1a_apply _ _ u ch)

/-! ### The region's result is the module's function, channel-last -/

/-- The rescaled array of what the region finds, at image `n`, position `q`, channel `ch`, is the module's result at
    `(n, ch, q / 56, q % 56)`. -/
theorem scaled_apply (c : Dev nD) (n : Fin 32) (q : Fin 3136) (ch : Fin 512) :
    Blocks.scaled (V m c main_v1) (V m c main_v3) (V m c main_v4) (V m c main_arg3) (V m c main_v5) (ix3 n q ch)
      = SE.out (m ((c : Thread nD τ).loc main_arg0)) (m ((c : Thread nD τ).loc main_arg1))
          (m ((c : Thread nD τ).loc main_arg2)) (m ((c : Thread nD τ).loc main_arg3))
          (m ((c : Thread nD τ).loc main_arg4)) (ix4 n ch (SE.row q) (SE.col q)) := by
  rw [Blocks.scaled_apply, SE.out_apply, input_apply]
  unfold Blocks.gateAt SE.gate SE.pooled SE.level
  simp only [input_apply m c, w1_apply m c, b1_apply m c, b2_apply m c, V_main_arg3 m c]

/-! ### After the region -/

theorem tail_eq (c : Dev nD) :
    (Pipeline.afterTail₀ cfgs (dats m) 0 (V0 m) [hostOps1] c main_v8 : S32x512x56x56.Idx → EReal)
    = transpose S32x512x56x56 [0, 3, 1, 2]
        (shapeCast S32x56x56x512 ((dats m 0 c).arrAt 5 cfg0.N) shapeCasts_S32x3136x512_S32x56x56x512)
        transposes_S32x56x56x512_S32x512x56x56_0_3_1_2 := by
  unfold Pipeline.afterTail₀
  show StableHlo.after hostOps1 _ (Proc.devRef .tc main_v8) = _
  after_results
  rw [Pipeline.withArrays_arr spec0 launch0.win.arr_inj c _ _ 5]
  rfl

/-- The program's result is the module's function of its arguments. -/
theorem result_eq (c : Dev nD) :
    (Pipeline.afterTail₀ cfgs (dats m) 0 (V0 m) [hostOps1] c main_v8 : S32x512x56x56.Idx → EReal)
    = SE.out (m ((c : Thread nD τ).loc main_arg0)) (m ((c : Thread nD τ).loc main_arg1))
        (m ((c : Thread nD τ).loc main_arg2)) (m ((c : Thread nD τ).loc main_arg3))
        (m ((c : Thread nD τ).loc main_arg4)) := by
  rw [tail_eq, Blocks.final]
  funext i
  obtain ⟨n, ch, h, w, rfl⟩ : ∃ (n : Fin 32) (ch : Fin 512) (h w : Fin 56), i = ix4 n ch h w :=
    ⟨i 0, i 1, i 2, i 3, eq_ix4 i⟩
  refine (transpose_apply _ _ _ (ix4 n ch h w) (ix4 n h w ch) fun b =>
      match b with | ⟨0, _⟩ => rfl | ⟨1, _⟩ => rfl | ⟨2, _⟩ => rfl | ⟨3, _⟩ => rfl).trans ?_
  refine (shapeCast_apply _ _ (ix4 n h w ch) (ix3 n (SE.pos h w) ch) ?_).trans ?_
  · rw [Shape.rowMajor_val_four, Shape.rowMajor_val_three]
    show (n.val * 3136 + (h.val * 56 + w.val)) * 512 + ch.val = ((n.val * 56 + h.val) * 56 + w.val) * 512 + ch.val
    omega
  · rw [scaled_apply, SE.row_pos, SE.col_pos]

/-! ### The run -/

/-- Every execution of the kernel's program ends with the module's function of the arguments in the result buffer and
    the arguments as they were. -/
theorem run : θ_run defs (onTc (τ := τ) (main (F := Ideal))) ⟨m, fun _ => 0, ρ⟩ (fun r => ∀ c : Dev nD,
      r.2.mem ((c.tc : Thread nD τ).loc main_v8)
        = SE.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.Around

end
-- ==== Proof.LibKeep.lean ====
/-
  Four layout steps around a kept unit axis, each read at an index written by coordinates: a matrix given a trailing
  axis of extent one and then repeated along it, and a column passed through rank 3 and back. A cast keeps the
  row-major position; a broadcast reads coordinate zero on an axis of extent one.
-/
import Idealize.ShloMosaic.Lib.Pipeline.Value
import Idealize.ShloMosaic.Lib.ValueIdx

namespace Idealize.ShloMosaic.ValueIdx

variable {α : Type}

/-- An [a, b] matrix cast to [a, b, 1] reads, at (i, j, u), the operand at (i, j): both have row-major
    position i · b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A column [a, 1] cast to [a, 1, 1] reads, at (i, u, v), the column's entry of row i. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_three, Shape.rowMajor_val_two]
    show i.val * 1 + 0 = (i.val * 1 + u.val) * 1 + v.val
    rw [hu, hv, Nat.mul_one, Nat.add_zero, Nat.mul_one, Nat.add_zero])

/-- An [a, 1, 1] array cast to the column [a, 1] reads, at (i, u), the operand at (i, 0, 0). -/
theorem shapeCast_a11_a1_apply {a : ℕ} (x : (⟨3, ![a, 1, 1]⟩ : Shape).Idx → α)
    (h : (⟨3, ![a, 1, 1]⟩ : Shape).ShapeCasts ⟨2, ![a, 1]⟩) (i : Fin a) (u : Fin 1) :
    shapeCast ⟨2, ![a, 1]⟩ x h (ix2 i u) = x (ix3 i (0 : Fin 1) (0 : Fin 1)) :=
  shapeCast_apply x h _ _ (by
    have hu : u.val = 0 := by omega
    rw [Shape.rowMajor_val_three, Shape.rowMajor_val_two]
    show (i.val * 1 + 0) * 1 + 0 = i.val * 1 + u.val
    rw [hu, Nat.add_zero, Nat.mul_one])

end Idealize.ShloMosaic.ValueIdx
-- ==== Proof.ReferenceGate.lean ====
/-
  The squeeze-and-excite body of the reference, read at one element of its block. A block is one image laid out as
  512 channels by 3136 spatial positions. For channel `c` the body sums the channel over the 3136 positions and scales
  the sum by a fixed factor, takes the 32 inner products of the scaled sums with the columns of the transposed first
  weight matrix, adds the first bias, clips below at zero, takes the inner product with column `c` of the transposed
  second weight matrix, adds the second bias and applies the logistic function; the stored element is the loaded
  element times that gate. Each step below reads one operation of that chain at an index written by its coordinates.
-/
import proofs.«102400_g2000302494452861_pallasbulk_240_7_alg».proof.Proof.Gen.ReferenceIdeal.Skeleton
import proofs.«102400_g2000302494452861_pallasbulk_240_7_alg».proof.Proof.LibKeep
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Gate

open Cert.ReferenceIdeal Cert.ReferenceIdeal.Gen Idealize.ShloMosaic Idealize.ShloMosaic.ValueIdx

/-- The sum over the 3136 positions of channel `c`. -/
theorem pool_apply (x0 : FVec Ideal S1x512x3136 .f32) (u : Fin 1) (c : Fin 512) :
    multiReduction .add [2] S1x512 x0 0x00000000#32 reduces_S1x512x3136_S1x512 (.inl rfl) rfl (ix2 u c)
      = ∑ q : Fin 3136, x0 (ix3 u c q) := by
  refine (Ideal.multiReduction_add_single x0 0x00000000#32 reduces_S1x512x3136_S1x512 (.inl rfl) rfl (ix2 u c)).trans ?_
  refine Finset.sum_congr rfl fun q _ => congrArg x0 (funext fun d => Fin.ext ?_)
  match d with
  | ⟨0, _⟩ => rfl
  | ⟨1, _⟩ => rfl
  | ⟨2, _⟩ => rfl

/-! ### The first product: scaled pooled sums against the columns of the transposed first weights -/

theorem lhs1_0 (i : S1x32.Idx) (q : dot_S1x512_S512x32_S1x32_1_0_0_1_n_n.contr.Idx) :
    (dot_S1x512_S512x32_S1x32_1_0_0_1_n_n.lhsIdx i q 0).val = (i 0).val := by
  unfold DotDims.lhsIdx
  rw [dif_neg (show ¬(0 : Fin S1x512.rank) ∈ dot_S1x512_S512x32_S1x32_1_0_0_1_n_n.lhsBatch by decide),
    dif_pos (show (0 : Fin S1x512.rank) ∈ dot_S1x512_S512x32_S1x32_1_0_0_1_n_n.lhsNonContracting by decide)]
  rfl
theorem lhs1_1 (i : S1x32.Idx) (q : dot_S1x512_S512x32_S1x32_1_0_0_1_n_n.contr.Idx) :
    (dot_S1x512_S512x32_S1x32_1_0_0_1_n_n.lhsIdx i q 1).val = (q ⟨0, by decide⟩).val :=
  dot_S1x512_S512x32_S1x32_1_0_0_1_n_n.lhsIdx_val_of_single rfl i q
theorem rhs1_0 (i : S1x32.Idx) (q : dot_S1x512_S512x32_S1x32_1_0_0_1_n_n.contr.Idx) :
    (dot_S1x512_S512x32_S1x32_1_0_0_1_n_n.rhsIdx i q 0).val = (q ⟨0, by decide⟩).val :=
  dot_S1x512_S512x32_S1x32_1_0_0_1_n_n.rhsIdx_val_of_single rfl i q
theorem rhs1_1 (i : S1x32.Idx) (q : dot_S1x512_S512x32_S1x32_1_0_0_1_n_n.contr.Idx) :
    (dot_S1x512_S512x32_S1x32_1_0_0_1_n_n.rhsIdx i q 1).val = (i 1).val := by
  unfold DotDims.rhsIdx
  rw [dif_neg (show ¬(1 : Fin S512x32.rank) ∈ dot_S1x512_S512x32_S1x32_1_0_0_1_n_n.rhsBatch by decide),
    dif_pos (show (1 : Fin S512x32.rank) ∈ dot_S1x512_S512x32_S1x32_1_0_0_1_n_n.rhsNonContracting by decide)]
  rfl

/-- Entry `(u, r)` of the first product is the inner product of row `u` of the left factor with column `r` of the right. -/
theorem hidden_apply (p : FVec Ideal S1x512 .f32) (w : FVec Ideal S512x32 .f32) (u : Fin 1) (r : Fin 32) :
    matmul dot_S1x512_S512x32_S1x32_1_0_0_1_n_n none p w (constant S1x32 .f32 0x00000000#32) (ix2 u r)
      = ∑ k : Fin 512, p (ix2 u k) * w (ix2 k r) := by
  show FloatOps.matmul dot_S1x512_S512x32_S1x32_1_0_0_1_n_n none p w (constant S1x32 .f32 0x00000000#32) (ix2 u r) = _
  rw [Ideal.matmul_constant_zero_apply,
    ← Equiv.sum_comp (contrEquiv1 dot_S1x512_S512x32_S1x32_1_0_0_1_n_n 512 rfl rfl).symm]
  refine Finset.sum_congr rfl fun k _ => ?_
  have hk := contrEquiv1_symm_val dot_S1x512_S512x32_S1x32_1_0_0_1_n_n 512 rfl rfl k
  have el : dot_S1x512_S512x32_S1x32_1_0_0_1_n_n.lhsIdx (ix2 u r)
      ((contrEquiv1 dot_S1x512_S512x32_S1x32_1_0_0_1_n_n 512 rfl rfl).symm k) = ix2 u k := funext fun ax => Fin.ext (by
    match ax with
    | ⟨0, _⟩ => exact lhs1_0 _ _
    | ⟨1, _⟩ => exact (lhs1_1 _ _).trans hk)
  have er : dot_S1x512_S512x32_S1x32_1_0_0_1_n_n.rhsIdx (ix2 u r)
      ((contrEquiv1 dot_S1x512_S512x32_S1x32_1_0_0_1_n_n 512 rfl rfl).symm k) = ix2 k r := funext fun ax => Fin.ext (by
    match ax with
    | ⟨0, _⟩ => exact (rhs1_0 _ _).trans hk
    | ⟨1, _⟩ => exact rhs1_1 _ _)
  rw [el, er]

/-! ### The second product: clipped activations against the columns of the transposed second weights -/

theorem lhs2_0 (i : S1x512.Idx) (q : dot_S1x32_S32x512_S1x512_1_0_0_1_n_n.contr.Idx) :
    (dot_S1x32_S32x512_S1x512_1_0_0_1_n_n.lhsIdx i q 0).val = (i 0).val := by
  unfold DotDims.lhsIdx
  rw [dif_neg (show ¬(0 : Fin S1x32.rank) ∈ dot_S1x32_S32x512_S1x512_1_0_0_1_n_n.lhsBatch by decide),
    dif_pos (show (0 : Fin S1x32.rank) ∈ dot_S1x32_S32x512_S1x512_1_0_0_1_n_n.lhsNonContracting by decide)]
  rfl
theorem lhs2_1 (i : S1x512.Idx) (q : dot_S1x32_S32x512_S1x512_1_0_0_1_n_n.contr.Idx) :
    (dot_S1x32_S32x512_S1x512_1_0_0_1_n_n.lhsIdx i q 1).val = (q ⟨0, by decide⟩).val :=
  dot_S1x32_S32x512_S1x512_1_0_0_1_n_n.lhsIdx_val_of_single rfl i q
theorem rhs2_0 (i : S1x512.Idx) (q : dot_S1x32_S32x512_S1x512_1_0_0_1_n_n.contr.Idx) :
    (dot_S1x32_S32x512_S1x512_1_0_0_1_n_n.rhsIdx i q 0).val = (q ⟨0, by decide⟩).val :=
  dot_S1x32_S32x512_S1x512_1_0_0_1_n_n.rhsIdx_val_of_single rfl i q
theorem rhs2_1 (i : S1x512.Idx) (q : dot_S1x32_S32x512_S1x512_1_0_0_1_n_n.contr.Idx) :
    (dot_S1x32_S32x512_S1x512_1_0_0_1_n_n.rhsIdx i q 1).val = (i 1).val := by
  unfold DotDims.rhsIdx
  rw [dif_neg (show ¬(1 : Fin S32x512.rank) ∈ dot_S1x32_S32x512_S1x512_1_0_0_1_n_n.rhsBatch by decide),
    dif_pos (show (1 : Fin S32x512.rank) ∈ dot_S1x32_S32x512_S1x512_1_0_0_1_n_n.rhsNonContracting by decide)]
  rfl

/-- Entry `(u, c)` of the second product is the inner product of row `u` of the left factor with column `c` of the right. -/
theorem excite_apply (h : FVec Ideal S1x32 .f32) (w : FVec Ideal S32x512 .f32) (u : Fin 1) (c : Fin 512) :
    matmul dot_S1x32_S32x512_S1x512_1_0_0_1_n_n none h w (constant S1x512 .f32 0x00000000#32) (ix2 u c)
      = ∑ k : Fin 32, h (ix2 u k) * w (ix2 k c) := by
  show FloatOps.matmul dot_S1x32_S32x512_S1x512_1_0_0_1_n_n none h w (constant S1x512 .f32 0x00000000#32) (ix2 u c) = _
  rw [Ideal.matmul_constant_zero_apply,
    ← Equiv.sum_comp (contrEquiv1 dot_S1x32_S32x512_S1x512_1_0_0_1_n_n 32 rfl rfl).symm]
  refine Finset.sum_congr rfl fun k _ => ?_
  have hk := contrEquiv1_symm_val dot_S1x32_S32x512_S1x512_1_0_0_1_n_n 32 rfl rfl k
  have el : dot_S1x32_S32x512_S1x512_1_0_0_1_n_n.lhsIdx (ix2 u c)
      ((contrEquiv1 dot_S1x32_S32x512_S1x512_1_0_0_1_n_n 32 rfl rfl).symm k) = ix2 u k := funext fun ax => Fin.ext (by
    match ax with
    | ⟨0, _⟩ => exact lhs2_0 _ _
    | ⟨1, _⟩ => exact (lhs2_1 _ _).trans hk)
  have er : dot_S1x32_S32x512_S1x512_1_0_0_1_n_n.rhsIdx (ix2 u c)
      ((contrEquiv1 dot_S1x32_S32x512_S1x512_1_0_0_1_n_n 32 rfl rfl).symm k) = ix2 k c := funext fun ax => Fin.ext (by
    match ax with
    | ⟨0, _⟩ => exact (rhs2_0 _ _).trans hk
    | ⟨1, _⟩ => exact rhs2_1 _ _)
  rw [el, er]

/-! ### The gate and the stored element -/

/-- The gate of channel `c`, from a block `x0` of one image, the transposed first weights `x1`, the first bias `x2` as a
    row, the transposed second weights `x3` and the second bias `x4` as a row. -/
def gate (x0 : FVec Ideal S1x512x3136 .f32) (x1 : FVec Ideal S512x32 .f32) (x2 : FVec Ideal S1x32 .f32)
    (x3 : FVec Ideal S32x512 .f32) (x4 : FVec Ideal S1x512 .f32) (u : Fin 1) (c : Fin 512) : EReal :=
  Ideal.logistic ((∑ r : Fin 32,
      max ((∑ c' : Fin 512, ((∑ q : Fin 3136, x0 (ix3 u c' q)) * Ideal.ofBits .f32 0x39A72F05#32) * x1 (ix2 c' r)) + x2 (ix2 u r))
        (Ideal.ofBits .f32 0x00000000#32) * x3 (ix2 r c))
    + x4 (ix2 u c))

/-- The element the body stores at channel `c`, position `q`: the loaded element times the gate. -/
theorem pay_apply (x0 : FVec Ideal S1x512x3136 .f32) (x1 : FVec Ideal S512x32 .f32) (x2 : FVec Ideal S1x32 .f32)
    (x3 : FVec Ideal S32x512 .f32) (x4 : FVec Ideal S1x512 .f32) (u : Fin 1) (c : Fin 512) (q : Fin 3136) :
    k0_pay1 (F := Ideal) x0 x1 x2 x3 x4 (ix3 u c q) = x0 (ix3 u c q) * gate x0 x1 x2 x3 x4 u c := by
  unfold k0_pay1 gate
  dsimp only
  rw [mulf_apply, broadcastTo_ab1_abc_apply, shapeCast_ab_ab1_apply]
  simp only [shapeCast_self]
  show x0 (ix3 u c q) * Ideal.logistic _ = _
  refine congrArg (fun z => x0 (ix3 u c q) * Ideal.logistic z) ?_
  rw [addf_apply, excite_apply]
  refine congrArg (fun z => z + x4 (ix2 u c)) (Finset.sum_congr rfl fun r _ => ?_)
  refine congrArg (fun z => z * x3 (ix2 r c)) ?_
  rw [maximumf_apply, broadcast_apply, addf_apply, hidden_apply]
  refine congrArg (fun z => max (z + x2 (ix2 u r)) (Ideal.ofBits .f32 0x00000000#32)) (Finset.sum_congr rfl fun c' _ => ?_)
  rw [mulf_apply, broadcast_apply, pool_apply]
  rfl

end Cert.ReferenceIdeal.Gate

end
-- ==== Proof.ReferenceBlocks.lean ====
/-
  From blocks to the whole array, for the reference. Grid point `t` of 32 works on image `t`: its block of the input
  and of the output is row `t` of a `32 × 512 × 3136` array, and the four small operands are read whole at every point.
  So what a point writes back is the restriction to its image of ONE function of the arrays the region finds: element
  `(n, c, q)` is the input element times the gate of image `n` and channel `c`. The thirty-two blocks cover the output
  array, which therefore ends as that function.
-/
import proofs.«102400_g2000302494452861_pallasbulk_240_7_alg».proof.Proof.Gen.ReferenceIdeal.Frame
import proofs.«102400_g2000302494452861_pallasbulk_240_7_alg».proof.Proof.ReferenceGate
import Idealize.ShloMosaic.Lib.Pipeline.Value

set_option maxRecDepth 16384

noncomputable section

open scoped BigOperators

namespace Cert.ReferenceIdeal.Blocks

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The gate of image `n` and channel `c` over whole arrays: the input `A0` with its positions flattened, the transposed
    first weights `A1`, the first bias `A2` as a row, the transposed second weights `A3`, the second bias `A4` as a row. -/
def gateAt (A0 : FVec Ideal S32x512x3136 .f32) (A1 : FVec Ideal S512x32 .f32) (A2 : FVec Ideal S1x32 .f32)
    (A3 : FVec Ideal S32x512 .f32) (A4 : FVec Ideal S1x512 .f32) (n : Fin 32) (c : Fin 512) : EReal :=
  Ideal.logistic ((∑ r : Fin 32,
      max ((∑ c' : Fin 512, ((∑ q : Fin 3136, A0 (ix3 n c' q)) * Ideal.ofBits .f32 0x39A72F05#32) * A1 (ix2 c' r))
          + A2 (ix2 (0 : Fin 1) r))
        (Ideal.ofBits .f32 0x00000000#32) * A3 (ix2 r c))
    + A4 (ix2 (0 : Fin 1) c))

/-- The rescaled array: every element times the gate of its image and channel. -/
def scaled (A0 : FVec Ideal S32x512x3136 .f32) (A1 : FVec Ideal S512x32 .f32) (A2 : FVec Ideal S1x32 .f32)
    (A3 : FVec Ideal S32x512 .f32) (A4 : FVec Ideal S1x512 .f32) : FVec Ideal S32x512x3136 .f32 :=
  fun i => A0 i * gateAt A0 A1 A2 A3 A4 (i 0) (i 1)

/-- The rescaled array at image `n`, channel `c`, position `q`. -/
theorem scaled_apply (A0 : FVec Ideal S32x512x3136 .f32) (A1 : FVec Ideal S512x32 .f32) (A2 : FVec Ideal S1x32 .f32)
    (A3 : FVec Ideal S32x512 .f32) (A4 : FVec Ideal S1x512 .f32) (n : Fin 32) (c : Fin 512) (q : Fin 3136) :
    scaled A0 A1 A2 A3 A4 (ix3 n c q) = A0 (ix3 n c q) * gateAt A0 A1 A2 A3 A4 n c := rfl

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the grid: the input and the output move one image per point, the small operands stay
    at block zero. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The image that point `t`'s block is. -/
def img (t : Fin cfg0.N) : Fin 32 :=
  ⟨t.val, by have h := t.isLt; have hN : cfg0.N = 32 := N_0; omega⟩

/-- Point `t`'s input block is image `t` of the array. -/
theorem read_input (c : Dev nD) (t : Fin cfg0.N) (u : Fin 1) (ch : Fin 512) (q : Fin 3136) :
    iblk m c 0 t (ix3 u ch q) = V m c main_v0 (ix3 (img t) ch q) := by
  obtain ⟨e0, e1, e2, -⟩ := index_facts t
  show V m c main_v0 (((cfg0.win 0).blk t).view.emb (ix3 u ch q)) = V m c main_v0 (ix3 (img t) ch q)
  have h : ((cfg0.win 0).blk t).view.emb (ix3 u ch q) = ix3 (img t) ch q := by
    funext ax; apply Fin.ext
    match ax with
    | ⟨0, _⟩ => show win0_0.index t (0 : Fin 3) * 1 + 1 * u.val = t.val; have := u.isLt; omega
    | ⟨1, _⟩ => show win0_0.index t (1 : Fin 3) * 512 + 1 * ch.val = ch.val; omega
    | ⟨2, _⟩ => show win0_0.index t (2 : Fin 3) * 3136 + 1 * q.val = q.val; omega
  rw [h]

/-- The transposed first weights are read whole. -/
theorem read_w1 (c : Dev nD) (t : Fin cfg0.N) (ch : Fin 512) (r : Fin 32) :
    iblk m c 1 t (ix2 ch r) = V m c main_v1 (ix2 ch r) := by
  obtain ⟨-, -, -, e0, e1, -⟩ := index_facts t
  show V m c main_v1 (((cfg0.win 1).blk t).view.emb (ix2 ch r)) = V m c main_v1 (ix2 ch r)
  have h : ((cfg0.win 1).blk t).view.emb (ix2 ch r) = ix2 ch r := by
    funext ax; apply Fin.ext
    match ax with
    | ⟨0, _⟩ => show win0_1.index t (0 : Fin 2) * 512 + 1 * ch.val = ch.val; omega
    | ⟨1, _⟩ => show win0_1.index t (1 : Fin 2) * 32 + 1 * r.val = r.val; omega
  rw [h]

/-- The first bias row is read whole. -/
theorem read_b1 (c : Dev nD) (t : Fin cfg0.N) (u : Fin 1) (r : Fin 32) :
    iblk m c 2 t (ix2 u r) = V m c main_v3 (ix2 u r) := by
  obtain ⟨-, -, -, -, -, e0, e1, -⟩ := index_facts t
  show V m c main_v3 (((cfg0.win 2).blk t).view.emb (ix2 u r)) = V m c main_v3 (ix2 u r)
  have h : ((cfg0.win 2).blk t).view.emb (ix2 u r) = ix2 u r := by
    funext ax; apply Fin.ext
    match ax with
    | ⟨0, _⟩ => show win0_2.index t (0 : Fin 2) * 1 + 1 * u.val = u.val; omega
    | ⟨1, _⟩ => show win0_2.index t (1 : Fin 2) * 32 + 1 * r.val = r.val; omega
  rw [h]

/-- The transposed second weights are read whole. -/
theorem read_w2 (c : Dev nD) (t : Fin cfg0.N) (r : Fin 32) (ch : Fin 512) :
    iblk m c 3 t (ix2 r ch) = V m c main_v2 (ix2 r ch) := by
  obtain ⟨-, -, -, -, -, -, -, e0, e1, -⟩ := index_facts t
  show V m c main_v2 (((cfg0.win 3).blk t).view.emb (ix2 r ch)) = V m c main_v2 (ix2 r ch)
  have h : ((cfg0.win 3).blk t).view.emb (ix2 r ch) = ix2 r ch := by
    funext ax; apply Fin.ext
    match ax with
    | ⟨0, _⟩ => show win0_3.index t (0 : Fin 2) * 32 + 1 * r.val = r.val; omega
    | ⟨1, _⟩ => show win0_3.index t (1 : Fin 2) * 512 + 1 * ch.val = ch.val; omega
  rw [h]

/-- The second bias row is read whole. -/
theorem read_b2 (c : Dev nD) (t : Fin cfg0.N) (u : Fin 1) (ch : Fin 512) :
    iblk m c 4 t (ix2 u ch) = V m c main_v4 (ix2 u ch) := by
  obtain ⟨-, -, -, -, -, -, -, -, -, e0, e1, -⟩ := index_facts t
  show V m c main_v4 (((cfg0.win 4).blk t).view.emb (ix2 u ch)) = V m c main_v4 (ix2 u ch)
  have h : ((cfg0.win 4).blk t).view.emb (ix2 u ch) = ix2 u ch := by
    funext ax; apply Fin.ext
    match ax with
    | ⟨0, _⟩ => show win0_4.index t (0 : Fin 2) * 1 + 1 * u.val = u.val; omega
    | ⟨1, _⟩ => show win0_4.index t (1 : Fin 2) * 512 + 1 * ch.val = ch.val; omega
  rw [h]

/-- Point `t`'s output block sits at image `t` of the output array. -/
theorem out_pos (t : Fin cfg0.N) (u : Fin 1) (ch : Fin 512) (q : Fin 3136) :
    ((cfg0.win 5).blk t).view.emb (ix3 u ch q) = ix3 (img t) ch q := by
  obtain ⟨-, -, -, -, -, -, -, -, -, -, -, e0, e1, e2⟩ := index_facts t
  funext ax; apply Fin.ext
  match ax with
  | ⟨0, _⟩ => show win0_5.index t (0 : Fin 3) * 1 + 1 * u.val = t.val; have := u.isLt; omega
  | ⟨1, _⟩ => show win0_5.index t (1 : Fin 3) * 512 + 1 * ch.val = ch.val; omega
  | ⟨2, _⟩ => show win0_5.index t (2 : Fin 3) * 3136 + 1 * q.val = q.val; omega

/-- What point `t` writes back is its block of the rescaled array. -/
theorem flushed_eq (c : Dev nD) (t : Fin cfg0.N) :
    (dats m 0 c).flushed 5 t = ((cfg0.win 5).blk t).view.read (Elt Ideal)
      (scaled (V m c main_v0) (V m c main_v1) (V m c main_v3) (V m c main_v2) (V m c main_v4)) := by
  show (cfg0.win 5).cut (grid0.coords t) ((dats m 0 c).after 5 t) = _
  rw [after0_5]
  unfold out0_5
  rw [View.canon_unit_zero zeros3]
  simp only [View.ld_unit_zero (S := S1x512x3136) zeros3, View.ld_unit_zero (S := S512x32) zeros2,
    View.ld_unit_zero (S := S1x32) zeros2, View.ld_unit_zero (S := S32x512) zeros2,
    View.ld_unit_zero (S := S1x512) zeros2]
  funext y
  obtain ⟨u, ch, q, rfl⟩ : ∃ (u : Fin 1) (ch : Fin 512) (q : Fin 3136), y = ix3 u ch q := ⟨y 0, y 1, y 2, eq_ix3 y⟩
  obtain rfl : u = (0 : Fin 1) := Subsingleton.elim _ _
  show k0_pay1 (F := Ideal) (iblk m c 0 t) (iblk m c 1 t) (iblk m c 2 t) (iblk m c 3 t) (iblk m c 4 t) (ix3 (0 : Fin 1) ch q)
    = scaled (V m c main_v0) (V m c main_v1) (V m c main_v3) (V m c main_v2) (V m c main_v4)
        (((cfg0.win 5).blk t).view.emb (ix3 (0 : Fin 1) ch q))
  rw [out_pos t (0 : Fin 1) ch q]
  refine (Gate.pay_apply (iblk m c 0 t) (iblk m c 1 t) (iblk m c 2 t) (iblk m c 3 t) (iblk m c 4 t) (0 : Fin 1) ch q).trans ?_
  rw [scaled_apply]
  unfold Gate.gate gateAt
  simp only [read_input m c t, read_w1 m c t, read_b1 m c t, read_w2 m c t, read_b2 m c t]

/-- An index of the output array is in point `t`'s block iff each coordinate is in the block's range on its axis. -/
theorem mem_blk (t : Fin cfg0.N) (i : S32x512x3136.Idx) :
    i ∈ ((cfg0.win 5).blk t).view.set ↔ ∀ a : Fin 3, win0_5.index t a * S1x512x3136.size a ≤ (i a).val
      ∧ (i a).val < win0_5.index t a * S1x512x3136.size a + S1x512x3136.size a := by
  show i ∈ ((View.whole main_v5).slice (win0_5.rect t)).set ↔ _
  rw [View.set_slice_whole, Rect.mem_set_unit]
  exact Iff.rfl

/-- Every image is some point's block: image `n` is point `n`'s. -/
theorem cover (i : S32x512x3136.Idx) :
    ∃ t : Fin cfg0.N, (cfg0.win 5).flush t = true ∧ i ∈ ((cfg0.win 5).blk t).view.set := by
  have hi0 : (i 0).val < 32 := (i 0).isLt
  have hi1 : (i 1).val < 512 := (i 1).isLt
  have hi2 : (i 2).val < 3136 := (i 2).isLt
  have hN : cfg0.N = 32 := N_0
  have ht : (i 0).val < cfg0.N := by rw [hN]; omega
  obtain ⟨-, -, -, -, -, -, -, -, -, -, -, e0, e1, e2⟩ := index_facts ⟨(i 0).val, ht⟩
  refine ⟨⟨(i 0).val, ht⟩, flush0_5 _, ?_⟩
  rw [mem_blk]
  intro a
  match a with
  | ⟨0, _⟩ =>
    show win0_5.index ⟨(i 0).val, ht⟩ (0 : Fin 3) * 1 ≤ (i 0).val
      ∧ (i 0).val < win0_5.index ⟨(i 0).val, ht⟩ (0 : Fin 3) * 1 + 1
    rw [e0]; show (i 0).val * 1 ≤ (i 0).val ∧ (i 0).val < (i 0).val * 1 + 1; omega
  | ⟨1, _⟩ =>
    show win0_5.index ⟨(i 0).val, ht⟩ (1 : Fin 3) * 512 ≤ (i 1).val
      ∧ (i 1).val < win0_5.index ⟨(i 0).val, ht⟩ (1 : Fin 3) * 512 + 512
    rw [e1]; omega
  | ⟨2, _⟩ =>
    show win0_5.index ⟨(i 0).val, ht⟩ (2 : Fin 3) * 3136 ≤ (i 2).val
      ∧ (i 2).val < win0_5.index ⟨(i 0).val, ht⟩ (2 : Fin 3) * 3136 + 3136
    rw [e2]; omega

/-- The output array after the region: the rescaled array of what the region found. -/
theorem final (c : Dev nD) : (dats m 0 c).arrAt 5 cfg0.N
    = scaled (V m c main_v0) (V m c main_v1) (V m c main_v3) (V m c main_v2) (V m c main_v4) :=
  (dats m 0 c).arrAt_eq_of_cover 5 _ (fun t _ => flushed_eq m c t) cover

end Cert.ReferenceIdeal.Blocks

end
-- ==== Proof.ReferenceAround.lean ====
/-
  The reference's program around its region. Before the region the two spatial axes of the input are flattened, both
  weight matrices are transposed, and each bias becomes a one-row matrix; after it the flattened axis is split again.
  Reading each of these steps at an index shows that the program's result is the squeeze-and-excite function of its
  five arguments; the one algebraic step is moving the pooling factor from the pooled sum onto the weight.
-/
import proofs.«102400_g2000302494452861_pallasbulk_240_7_alg».proof.Proof.Gen.ReferenceIdeal.Frame
import proofs.«102400_g2000302494452861_pallasbulk_240_7_alg».proof.Proof.ReferenceBlocks
import proofs.«102400_g2000302494452861_pallasbulk_240_7_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.ReferenceIdeal.Around

open Cert.ReferenceIdeal Cert.ReferenceIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ### What the region finds -/

theorem input_eq (c : Dev nD) : (V m c main_v0 : S32x512x3136.Idx → EReal)
    = shapeCast S32x512x3136 (m ((c : Thread nD τ).loc main_arg0)) shapeCasts_S32x512x56x56_S32x512x3136 := by
  show StableHlo.after hostOps0 (fun b => m (c, b)) (Proc.devRef .tc main_v0) = _
  after_results <;> rfl

/-- The flattened input at image `n`, channel `ch`, position `q` is the argument at `(n, ch, q / 56, q % 56)`:
    flattening keeps the row-major position. -/
theorem input_apply (c : Dev nD) (n : Fin 32) (ch : Fin 512) (q : Fin 3136) :
    V m c main_v0 (ix3 n ch q) = m ((c : Thread nD τ).loc main_arg0) (ix4 n ch (SE.row q) (SE.col q)) := by
  refine (congrFun (input_eq m c) (ix3 n ch q)).trans ?_
  refine shapeCast_apply _ _ (ix3 n ch q) (ix4 n ch (SE.row q) (SE.col q)) ?_
  rw [Shape.rowMajor_val_four, Shape.rowMajor_val_three]
  show ((n.val * 512 + ch.val) * 56 + q.val / 56) * 56 + q.val % 56 = (n.val * 512 + ch.val) * 3136 + q.val
  omega

theorem w1_eq (c : Dev nD) : (V m c main_v1 : S512x32.Idx → EReal)
    = transpose S512x32 [1, 0] (m ((c : Thread nD τ).loc main_arg1)) transposes_S32x512_S512x32_1_0 := by
  show StableHlo.after hostOps0 (fun b => m (c, b)) (Proc.devRef .tc main_v1) = _
  after_results <;> rfl

/-- The transposed first weights. -/
theorem w1_apply (c : Dev nD) (ch : Fin 512) (r : Fin 32) :
    V m c main_v1 (ix2 ch r) = m ((c : Thread nD τ).loc main_arg1) (ix2 r ch) :=
  (congrFun (w1_eq m c) (ix2 ch r)).trans (transpose_ix2_apply _ _ ch r)

theorem w2_eq (c : Dev nD) : (V m c main_v2 : S32x512.Idx → EReal)
    = transpose S32x512 [1, 0] (m ((c : Thread nD τ).loc main_arg3)) transposes_S512x32_S32x512_1_0 := by
  show StableHlo.after hostOps0 (fun b => m (c, b)) (Proc.devRef .tc main_v2) = _
  after_results <;> rfl

/-- The transposed second weights. -/
theorem w2_apply (c : Dev nD) (r : Fin 32) (ch : Fin 512) :
    V m c main_v2 (ix2 r ch) = m ((c : Thread nD τ).loc main_arg3) (ix2 ch r) :=
  (congrFun (w2_eq m c) (ix2 r ch)).trans (transpose_ix2_apply _ _ r ch)

theorem b1_eq (c : Dev nD) : (V m c main_v3 : S1x32.Idx → EReal)
    = shapeCast S1x32 (m ((c : Thread nD τ).loc main_arg2)) shapeCasts_S32_S1x32 := by
  show StableHlo.after hostOps0 (fun b => m (c, b)) (Proc.devRef .tc main_v3) = _
  after_results <;> rfl

/-- The first bias as a one-row matrix. -/
theorem b1_apply (c : Dev nD) (u : Fin 1) (r : Fin 32) :
    V m c main_v3 (ix2 u r) = m ((c : Thread nD τ).loc main_arg2) (ix1 r) :=
  (congrFun (b1_eq m c) (ix2 u r)).trans (shapeCast_a_1a_apply _ _ u r)

theorem b2_eq (c : Dev nD) : (V m c main_v4 : S1x512.Idx → EReal)
    = shapeCast S1x512 (m ((c : Thread nD τ).loc main_arg4)) shapeCasts_S512_S1x512 := by
  show StableHlo.after hostOps0 (fun b => m (c, b)) (Proc.devRef .tc main_v4) = _
  after_results <;> rfl

/-- The second bias as a one-row matrix. -/
theorem b2_apply (c : Dev nD) (u : Fin 1) (ch : Fin 512) :
    V m c main_v4 (ix2 u ch) = m ((c : Thread nD τ).loc main_arg4) (ix1 ch) :=
  (congrFun (b2_eq m c) (ix2 u ch)).trans (shapeCast_a_1a_apply _ _ u ch)

/-! ### The region's result is the module's function, positions flattened -/

/-- The rescaled array of what the region finds, at image `n`, channel `ch`, position `q`, is the module's result at
    `(n, ch, q / 56, q % 56)`: the pooling factor moves from the pooled sum onto the weight. -/
theorem scaled_apply (c : Dev nD) (n : Fin 32) (ch : Fin 512) (q : Fin 3136) :
    Blocks.scaled (V m c main_v0) (V m c main_v1) (V m c main_v3) (V m c main_v2) (V m c main_v4) (ix3 n ch q)
      = SE.out (m ((c : Thread nD τ).loc main_arg0)) (m ((c : Thread nD τ).loc main_arg1))
          (m ((c : Thread nD τ).loc main_arg2)) (m ((c : Thread nD τ).loc main_arg3))
          (m ((c : Thread nD τ).loc main_arg4)) (ix4 n ch (SE.row q) (SE.col q)) := by
  rw [Blocks.scaled_apply, SE.out_apply, input_apply]
  unfold Blocks.gateAt SE.gate SE.pooled SE.level SE.scaledW SE.factor
  simp only [input_apply m c, w1_apply m c, b1_apply m c, w2_apply m c, b2_apply m c, SE.scale_move]

/-! ### After the region -/

theorem tail_eq (c : Dev nD) :
    (Pipeline.afterTail₀ cfgs (dats m) 0 (V0 m) [hostOps1] c main_v6 : S32x512x56x56.Idx → EReal)
    = shapeCast S32x512x56x56 ((dats m 0 c).arrAt 5 cfg0.N) shapeCasts_S32x512x3136_S32x512x56x56 := by
  unfold Pipeline.afterTail₀
  show StableHlo.after hostOps1 _ (Proc.devRef .tc main_v6) = _
  after_results
  rw [Pipeline.withArrays_arr spec0 launch0.win.arr_inj c _ _ 5]
  rfl

/-- The program's result is the module's function of its arguments. -/
theorem result_eq (c : Dev nD) :
    (Pipeline.afterTail₀ cfgs (dats m) 0 (V0 m) [hostOps1] c main_v6 : S32x512x56x56.Idx → EReal)
    = SE.out (m ((c : Thread nD τ).loc main_arg0)) (m ((c : Thread nD τ).loc main_arg1))
        (m ((c : Thread nD τ).loc main_arg2)) (m ((c : Thread nD τ).loc main_arg3))
        (m ((c : Thread nD τ).loc main_arg4)) := by
  rw [tail_eq, Blocks.final]
  funext i
  obtain ⟨n, ch, h, w, rfl⟩ : ∃ (n : Fin 32) (ch : Fin 512) (h w : Fin 56), i = ix4 n ch h w :=
    ⟨i 0, i 1, i 2, i 3, eq_ix4 i⟩
  refine (shapeCast_apply _ _ (ix4 n ch h w) (ix3 n ch (SE.pos h w)) ?_).trans ?_
  · rw [Shape.rowMajor_val_four, Shape.rowMajor_val_three]
    show (n.val * 512 + ch.val) * 3136 + (h.val * 56 + w.val) = ((n.val * 512 + ch.val) * 56 + h.val) * 56 + w.val
    omega
  · rw [scaled_apply, SE.row_pos, SE.col_pos]

/-! ### The run -/

/-- Every execution of the reference's program ends with the module's function of the arguments in the result buffer
    and the arguments as they were. -/
theorem run : θ_run defs (onTc (τ := τ) (main (F := Ideal))) ⟨m, fun _ => 0, ρ⟩ (fun r => ∀ c : Dev nD,
      r.2.mem ((c.tc : Thread nD τ).loc main_v6)
        = SE.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.ReferenceIdeal.Around

end
-- ==== Proof.lean ====
/-
  A squeeze-and-excite module, two ways. Both programs gate every channel of every image of a `32 × 512 × 56 × 56`
  input: pool the channel over its 3136 positions, pass the 512 pooled values through a `512 → 32 → 512` two-layer
  network (bias, clip at zero, bias, logistic function), and multiply the channel by the resulting gate.

  The kernel works channel-last, two images per grid point, on weights into which the pooling factor (the float
  nearest 1/3136) has been folded beforehand; the reference works channel-first, one image per grid point, and scales
  the pooled sums by the same factor inside its body. On the extended reals the two agree term by term:
  `(s · k) · w = s · (w · k)` needs only commutativity and associativity of the product, so the inputs' finiteness is
  never used. The sums over positions, over channels and over hidden units are the same sums on both sides, and the
  rearrangements around the two regions (a transposition and two reshapes against one reshape and two transposed
  weight matrices) only rename indices. Each program's result array is therefore the one function `SE.out` of the five
  arguments, and the two results are equal element by element.

  Every run terminates and leaves the arguments unchanged: that is the generated frame of each program, and the
  value statements are read off the same runs. The idealization rewrote nothing, so there is nothing to preserve.
-/
import proofs.«102400_g2000302494452861_pallasbulk_240_7_alg».proof.Defs
import proofs.«102400_g2000302494452861_pallasbulk_240_7_alg».proof.Proof.Gen.Kernel
import proofs.«102400_g2000302494452861_pallasbulk_240_7_alg».proof.Proof.Gen.Kernel.Frame
import proofs.«102400_g2000302494452861_pallasbulk_240_7_alg».proof.Proof.Gen.KernelIdeal
import proofs.«102400_g2000302494452861_pallasbulk_240_7_alg».proof.Proof.Gen.KernelIdeal.Frame
import proofs.«102400_g2000302494452861_pallasbulk_240_7_alg».proof.Proof.Gen.ReferenceIdeal
import proofs.«102400_g2000302494452861_pallasbulk_240_7_alg».proof.Proof.Gen.ReferenceIdeal.Frame
import proofs.«102400_g2000302494452861_pallasbulk_240_7_alg».proof.Proof.Gen.Pre_finite_inputs
import proofs.«102400_g2000302494452861_pallasbulk_240_7_alg».proof.Proof.KernelAround
import proofs.«102400_g2000302494452861_pallasbulk_240_7_alg».proof.Proof.ReferenceAround
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments. -/
theorem frame_reference_ideal : Cert.frame_ReferenceIdeal := fun m ρ _ => Cert.ReferenceIdeal.Gen.frame m ρ

/-- No operation was rewritten for the ideal reading. -/
theorem preserves : Cert.preserves_Kernel_KernelIdeal := trivial

/-- From memories that agree on the arguments both programs end with the module's function of those arguments. -/
theorem algebraic : Cert.algebraic_KernelIdeal_ReferenceIdeal := by
  intro m ρ m' ρ' _ hagree
  refine ⟨_, Cert.KernelIdeal.Around.run m ρ, ?_⟩
  refine (θ_run Cert.ReferenceIdeal.defs _ _).mono (fun _ h c => ⟨(h c).1.trans ?_, (h c).2⟩)
    (Cert.ReferenceIdeal.Around.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
